-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S800000 32) (main_arg2 : IVec S800000 32) (main_arg3 : FVec F S64x64 .f32) (main_arg4 : FVec F S64 .f32) (main_arg5 : FVec F S64x64 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S5000x64 : Shape := ⟨2, ![5000, 64]⟩
abbrev S1x64 : Shape := ⟨2, ![1, 64]⟩

abbrev nBuf : Space → Nat
  | .hbm => 33
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S_, .f32⟩
  | .hbm, ⟨17, _⟩ => ⟨S50000x64, .f32⟩
  | .hbm, ⟨18, _⟩ => ⟨S800000x1, .i32⟩
  | .hbm, ⟨19, _⟩ => ⟨S50000x64, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x64, .f32⟩
  | .hbm, ⟨31, _⟩ => ⟨S50000x64, .f32⟩
  | .hbm, ⟨32, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  shapeCasts_S5000x64_S5000x64 : S5000x64.ShapeCasts S5000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 41
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S_, .f32⟩
  | .hbm, ⟨17, _⟩ => ⟨S50000x64, .f32⟩
  | .hbm, ⟨18, _⟩ => ⟨S800000x1, .i32⟩
  | .hbm, ⟨19, _⟩ => ⟨S50000x64, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x64, .f32⟩
  | .hbm, ⟨31, _⟩ => ⟨S50000x64, .f32⟩
  | .hbm, ⟨32, _⟩ => ⟨S50000x64, .f32⟩
  | .hbm, ⟨33, _⟩ => ⟨S1x64, .f32⟩
  | .hbm, ⟨34, _⟩ => ⟨S50000x64, .f32⟩
  | .hbm, ⟨35, _⟩ => ⟨S50000x64, .f32⟩
  | .hbm, ⟨36, _⟩ => ⟨S50000x64, .f32⟩
  | .hbm, ⟨37, _⟩ => ⟨S1x64, .f32⟩
  | .hbm, ⟨38, _⟩ => ⟨S50000x64, .f32⟩
  | .hbm, ⟨39, _⟩ => ⟨S50000x64, .f32⟩
  | .hbm, ⟨40, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.Spec.lean ====
/-
  The node projection of a mean-aggregating graph layer, as one function of its six arrays, and the two ways the
  programs spell it.

  For node features X and aggregated neighbour features H (both [50000, 64]), weight tables Ws, Wn ([64, 64]) and
  bias vectors bs, bn ([64]) the result at node r and output channel q is

      (∑ k, X (r, k) · Ws (k, q) + bs q) + (∑ k, H (r, k) · Wn (k, q) + bn q).

  On the extended reals a matrix product into a zero accumulator and a host contraction are both this finite sum of
  products, a bias laid out as a one-row table and repeated over the rows reads the bias entry of the column, and
  the three additions are grouped the same way on both sides; so no law beyond reading each operation at an index is
  needed, and in particular nothing has to be finite.

  * `tile_apply`: a tile of 5000 rows computes, at its row p and column q, the projection at the node r whose
    feature rows the tile's rows p are.
  * `whole_apply`: the whole-array spelling (two contractions, two broadcast biases, three sums) read at (r, q).
-/
import Idealize.ShloMosaic.PureOps.Ideal.Laws
import Idealize.ShloMosaic.Lib.ValueIdx
import Idealize.ShloMosaic.Lib.ValueLayout
import Idealize.ShloMosaic.Lib.Pipeline.Value
import proofs.«155360_j43671227466484_2_alg».proof.Proof.LibTileMatmul

noncomputable section

open scoped BigOperators

namespace Cert.NodeProj

open Idealize.ShloMosaic Idealize.ShloMosaic.ValueIdx Idealize.ShloMosaic.TileMatmul

/-- Node features: 50000 nodes, 64 channels. -/
abbrev SN : Shape := ⟨2, ![50000, 64]⟩
/-- One tile of 5000 nodes. -/
abbrev ST : Shape := ⟨2, ![5000, 64]⟩
/-- A weight table. -/
abbrev SW : Shape := ⟨2, ![64, 64]⟩
/-- A bias vector. -/
abbrev SB : Shape := ⟨1, ![64]⟩
/-- A bias laid out as a one-row table. -/
abbrev SR : Shape := ⟨2, ![1, 64]⟩

/-- The projection at node `r` and output channel `q`. -/
def projAt (X H : FVec Ideal SN .f32) (Ws Wn : FVec Ideal SW .f32) (bs bn : FVec Ideal SB .f32)
    (r : Fin 50000) (q : Fin 64) : EReal :=
  ((∑ k : Fin 64, (X (ix2 r k) : EReal) * Ws (ix2 k q)) + bs (ix1 q))
    + ((∑ k : Fin 64, (H (ix2 r k) : EReal) * Wn (ix2 k q)) + bn (ix1 q))

/-- The projection as a whole array. -/
def proj (X H : FVec Ideal SN .f32) (Ws Wn : FVec Ideal SW .f32) (bs bn : FVec Ideal SB .f32) : FVec Ideal SN .f32 :=
  fun i => projAt X H Ws Wn bs bn (i 0) (i 1)

theorem proj_ix2 (X H : FVec Ideal SN .f32) (Ws Wn : FVec Ideal SW .f32) (bs bn : FVec Ideal SB .f32)
    (r : Fin 50000) (q : Fin 64) : proj X H Ws Wn bs bn (ix2 r q) = projAt X H Ws Wn bs bn r q := rfl

/-- A bias vector laid out as one row and repeated over the tile's rows reads, at (p, q), the bias entry q. -/
theorem bias_tile_apply (hsc : SB.ShapeCasts SR) (hbc : SR.Broadcasts ST) (b : FVec Ideal SB .f32)
    (p : Fin 5000) (q : Fin 64) :
    broadcastTo ST (shapeCast SR b hsc) hbc (ix2 p q) = b (ix1 q) := by
  rw [broadcastTo_1b_ab_apply (shapeCast SR b hsc) hbc p q, shapeCast_a_1a_apply b hsc 0 q]

/-- The same bias through the host's two broadcasts — along axis 1 into a one-row table, then over all the rows —
    reads, at (r, q), the bias entry q. -/
theorem bias_whole_apply (h1 : SB.BroadcastsInDim SR (![1] : Fin 1 → Fin SR.rank))
    (h2 : SR.BroadcastsInDim SN (![0, 1] : Fin 2 → Fin SN.rank)) (b : FVec Ideal SB .f32)
    (r : Fin 50000) (q : Fin 64) :
    broadcastInDim SN ![0, 1] h2 (broadcastInDim SR ![1] h1 b) (ix2 r q) = b (ix1 q) := by
  rw [broadcastInDim_apply _ h2 (broadcastInDim SR ![1] h1 b) (ix2 r q) (ix2 (0 : Fin 1) q) (fun a => by
        match a with
        | ⟨0, _⟩ => show 0 = if (1 : Nat) = 1 then 0 else r.val; rw [if_pos rfl]
        | ⟨1, _⟩ => show q.val = if (64 : Nat) = 1 then 0 else q.val; rw [if_neg (by decide)]),
      broadcastInDim_apply _ h1 b (ix2 (0 : Fin 1) q) (ix1 q) (fun a => by
        match a with
        | ⟨0, _⟩ => show q.val = if (64 : Nat) = 1 then 0 else q.val; rw [if_neg (by decide)])]

/-- THE TILE. Rows `p` of the two tiles are rows `r` of the node features and of the aggregated features; then the
    tile's two products into zero, each plus its bias row, added, give at (p, q) the projection at (r, q). -/
theorem tile_apply
    (wT : DotDims.WF ST SW ST [1] [0] [0] [1] [] []) (hsc : SB.ShapeCasts SR) (hbc : SR.Broadcasts ST)
    (hss : ST.ShapeCasts ST)
    (x0 x1 : FVec Ideal ST .f32) (ws wn : FVec Ideal SW .f32) (bs bn : FVec Ideal SB .f32)
    (X H : FVec Ideal SN .f32) (p : Fin 5000) (q : Fin 64) (r : Fin 50000)
    (hx : ∀ k : Fin 64, (x0 (ix2 p k) : EReal) = X (ix2 r k))
    (hh : ∀ k : Fin 64, (x1 (ix2 p k) : EReal) = H (ix2 r k)) :
    addf (addf (matmul (F := Ideal) (plainDims wT) none x0 ws (constant (F := Ideal) ST .f32 0x00000000#32))
               (broadcastTo ST (shapeCast SR bs hsc) hbc))
         (addf (matmul (F := Ideal) (plainDims wT) none (shapeCast ST x1 hss) wn
                  (constant (F := Ideal) ST .f32 0x00000000#32))
               (broadcastTo ST (shapeCast SR bn hsc) hbc)) (ix2 p q)
      = projAt X H ws wn bs bn r q := by
  rw [shapeCast_self x1 hss, addf_apply, addf_apply, addf_apply, bias_tile_apply, bias_tile_apply,
    matmul_zero_apply wT none x0 ws p q, matmul_zero_apply wT none x1 wn p q]
  unfold projAt
  simp only [hx, hh]

/-- THE WHOLE ARRAYS. Two host contractions, each plus its broadcast bias, added, read at (r, q). -/
theorem whole_apply
    (wX : DotDims.WF SN SW SN [1] [0] [0] [1] [] [])
    (h1 : SB.BroadcastsInDim SR (![1] : Fin 1 → Fin SR.rank))
    (h2 : SR.BroadcastsInDim SN (![0, 1] : Fin 2 → Fin SN.rank))
    (X H : FVec Ideal SN .f32) (ws wn : FVec Ideal SW .f32) (bs bn : FVec Ideal SB .f32)
    (r : Fin 50000) (q : Fin 64) :
    addf (addf (Host.dotGeneral (F := Ideal) (plainDims wX) none X ws)
               (broadcastInDim SN ![0, 1] h2 (broadcastInDim SR ![1] h1 bs)))
         (addf (Host.dotGeneral (F := Ideal) (plainDims wX) none H wn)
               (broadcastInDim SN ![0, 1] h2 (broadcastInDim SR ![1] h1 bn))) (ix2 r q)
      = projAt X H ws wn bs bn r q := by
  rw [addf_apply, addf_apply, addf_apply, bias_whole_apply, bias_whole_apply,
    dotGeneral_apply wX none X ws r q, dotGeneral_apply wX none H wn r q]
  rfl

/-- The whole-array spelling IS the projection. -/
theorem whole_eq
    (wX : DotDims.WF SN SW SN [1] [0] [0] [1] [] [])
    (h1 : SB.BroadcastsInDim SR (![1] : Fin 1 → Fin SR.rank))
    (h2 : SR.BroadcastsInDim SN (![0, 1] : Fin 2 → Fin SN.rank))
    (X H : FVec Ideal SN .f32) (ws wn : FVec Ideal SW .f32) (bs bn : FVec Ideal SB .f32) :
    addf (addf (Host.dotGeneral (F := Ideal) (plainDims wX) none X ws)
               (broadcastInDim SN ![0, 1] h2 (broadcastInDim SR ![1] h1 bs)))
         (addf (Host.dotGeneral (F := Ideal) (plainDims wX) none H wn)
               (broadcastInDim SN ![0, 1] h2 (broadcastInDim SR ![1] h1 bn)))
      = proj X H ws wn bs bn := by
  funext i
  obtain ⟨r, q, rfl⟩ : ∃ (r : Fin 50000) (q : Fin 64), i = ix2 r q := ⟨i 0, i 1, eq_ix2 i⟩
  rw [whole_apply, proj_ix2]

end Cert.NodeProj

end
-- ==== Proof.KernelValue.lean ====
/-
  What the kernel leaves in its result array, at the extended reals.

  The kernel visits ten tiles of 5000 nodes. At tile t it is handed rows 5000 t … 5000 t + 4999 of the node features
  and of the aggregated neighbour features, both weight tables whole and both bias vectors whole, and stores
  (tile · Ws + bs) + (tile' · Wn + bn) into rows 5000 t … 5000 t + 4999 of the result. A row of a tile is a row of
  its array, so by `Cert.NodeProj.tile_apply` every stored entry is the projection `Cert.NodeProj.proj` of the whole
  arrays at that node and channel; the ten tiles cover all 50000 rows, so the result array IS that projection.

  The aggregated features are whatever the host operations before the call left in their buffer (`V m c main_v18`);
  this module never looks inside them.
-/
import proofs.«155360_j43671227466484_2_alg».proof.Proof.Gen.KernelIdeal.Frame
import proofs.«155360_j43671227466484_2_alg».proof.Proof.Gen.KernelIdeal.Value
import proofs.«155360_j43671227466484_2_alg».proof.Proof.Spec
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Cert.NodeProj
open Idealize.ShloMosaic.ValueIdx Idealize.ShloMosaic.TileMatmul

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-! ## The body's arithmetic at an index of a tile -/

/-- The body's stored value at row p, column q of a tile whose rows p are rows r of the whole arrays. -/
theorem pay_apply (x0 x1 : Vec Ideal S5000x64 .f32) (ws wn : Vec Ideal S64x64 .f32) (bs bn : Vec Ideal S64 .f32)
    (X H : FVec Ideal SN .f32) (p : Fin 5000) (q : Fin 64) (r : Fin 50000)
    (hx : ∀ k : Fin 64, (x0 (ix2 p k) : EReal) = X (ix2 r k))
    (hh : ∀ k : Fin 64, (x1 (ix2 p k) : EReal) = H (ix2 r k)) :
    k0_pay1 (F := Ideal) x0 ws bs x1 wn bn (ix2 p q) = projAt X H ws wn bs bn r q :=
  tile_apply dot_S5000x64_S64x64_S5000x64_1_0_0_1_n_n.wf shapeCasts_S64_S1x64 broadcasts_S1x64_S5000x64
    shapeCasts_S5000x64_S5000x64 x0 x1 ws wn bs bn X H p q r hx hh

/-- The same at any index y of a tile that starts at row 5000 T of the arrays, against the array index i with
    i = (5000 T + y 0, y 1). -/
theorem pay_at (x0 x1 : Vec Ideal S5000x64 .f32) (ws wn : Vec Ideal S64x64 .f32) (bs bn : Vec Ideal S64 .f32)
    (X H : FVec Ideal SN .f32) (T : Nat)
    (hx : ∀ (y : S5000x64.Idx) (i : S50000x64.Idx), (i 0).val = T * 5000 + (y 0).val → (i 1).val = (y 1).val →
      (x0 y : EReal) = X i)
    (hh : ∀ (y : S5000x64.Idx) (i : S50000x64.Idx), (i 0).val = T * 5000 + (y 0).val → (i 1).val = (y 1).val →
      (x1 y : EReal) = H i)
    (y : S5000x64.Idx) (i : S50000x64.Idx) (h0 : (i 0).val = T * 5000 + (y 0).val) (h1 : (i 1).val = (y 1).val) :
    k0_pay1 (F := Ideal) x0 ws bs x1 wn bn y = proj X H ws wn bs bn i := by
  obtain ⟨p, q, rfl⟩ : ∃ (p : Fin 5000) (q : Fin 64), y = ix2 p q := ⟨y 0, y 1, eq_ix2 y⟩
  obtain ⟨r, q', rfl⟩ : ∃ (r : Fin 50000) (q' : Fin 64), i = ix2 r q' := ⟨i 0, i 1, eq_ix2 i⟩
  obtain rfl : q' = q := Fin.ext h1
  rw [proj_ix2]
  exact pay_apply x0 x1 ws wn bs bn X H p q' r (fun k => hx (ix2 p k) (ix2 r k) h0 rfl)
    (fun k => hh (ix2 p k) (ix2 r k) h0 rfl)

/-! ## The windows' blocks -/

/-- Where each window's block sits: the three row-tiled windows at rows 5000 t, the tables and biases at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0
    ∧ win0_2.index t (0 : Fin 2) = 0 ∧ win0_2.index t (1 : Fin 2) = 0
    ∧ win0_4.index t (0 : Fin 2) = 0 ∧ win0_4.index t (1 : Fin 2) = 0
    ∧ win0_3.index t (0 : Fin 1) = 0 ∧ win0_5.index t (0 : Fin 1) = 0 :=
  (by decide +kernel : ∀ t : Fin grid0.N, _)

/-- Window 0's block at point t, read off ANY [50000, 64] array, holds that array's rows 5000 t … 5000 t + 4999. -/
theorem read_rows0 (t : Fin cfg0.N) (G : FVec Ideal S50000x64 .f32) (y : S5000x64.Idx) (i : S50000x64.Idx)
    (h0 : (i 0).val = t.val * 5000 + (y 0).val) (h1 : (i 1).val = (y 1).val) :
    ((cfg0.win 0).blk t).view.read (Elt Ideal) G y = G i := by
  obtain ⟨e0, e1, -⟩ := idx_facts t
  show G (((cfg0.win 0).blk t).view.emb y) = G i
  refine congrArg G (funext fun a => Fin.ext ?_)
  match a with
  | ⟨0, _⟩ => show win0_0.index t (0 : Fin 2) * 5000 + 1 * (y 0).val = (i 0).val; omega
  | ⟨1, _⟩ => show win0_0.index t (1 : Fin 2) * 64 + 1 * (y 1).val = (i 1).val; omega

/-- Window 1's block likewise. -/
theorem read_rows1 (t : Fin cfg0.N) (G : FVec Ideal S50000x64 .f32) (y : S5000x64.Idx) (i : S50000x64.Idx)
    (h0 : (i 0).val = t.val * 5000 + (y 0).val) (h1 : (i 1).val = (y 1).val) :
    ((cfg0.win 1).blk t).view.read (Elt Ideal) G y = G i := by
  obtain ⟨-, -, e0, e1, -⟩ := idx_facts t
  show G (((cfg0.win 1).blk t).view.emb y) = G i
  refine congrArg G (funext fun a => Fin.ext ?_)
  match a with
  | ⟨0, _⟩ => show win0_1.index t (0 : Fin 2) * 5000 + 1 * (y 0).val = (i 0).val; omega
  | ⟨1, _⟩ => show win0_1.index t (1 : Fin 2) * 64 + 1 * (y 1).val = (i 1).val; omega

/-- Window 2's block is its whole [64, 64] table, at every point. -/
theorem read_whole2 (t : Fin cfg0.N) (G : FVec Ideal S64x64 .f32) :
    ((cfg0.win 2).blk t).view.read (Elt Ideal) G = G := by
  obtain ⟨-, -, -, -, -, -, e0, e1, -⟩ := idx_facts t
  funext y
  show G (((cfg0.win 2).blk t).view.emb y) = G y
  refine congrArg G (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- Window 4's block is its whole [64, 64] table. -/
theorem read_whole4 (t : Fin cfg0.N) (G : FVec Ideal S64x64 .f32) :
    ((cfg0.win 4).blk t).view.read (Elt Ideal) G = G := by
  obtain ⟨-, -, -, -, -, -, -, -, e0, e1, -⟩ := idx_facts t
  funext y
  show G (((cfg0.win 4).blk t).view.emb y) = G y
  refine congrArg G (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- Window 3's block is its whole [64] vector. -/
theorem read_whole3 (t : Fin cfg0.N) (G : FVec Ideal S64 .f32) :
    ((cfg0.win 3).blk t).view.read (Elt Ideal) G = G := by
  obtain ⟨-, -, -, -, -, -, -, -, -, -, e0, -⟩ := idx_facts t
  funext y
  show G (((cfg0.win 3).blk t).view.emb y) = G y
  refine congrArg G (funext fun a => Fin.ext ?_)
  match a with
  | ⟨0, _⟩ => show win0_3.index t (0 : Fin 1) * 64 + 1 * (y 0).val = (y 0).val; omega

/-- Window 5's block is its whole [64] vector. -/
theorem read_whole5 (t : Fin cfg0.N) (G : FVec Ideal S64 .f32) :
    ((cfg0.win 5).blk t).view.read (Elt Ideal) G = G := by
  obtain ⟨-, -, -, -, -, -, -, -, -, -, -, e0⟩ := idx_facts t
  funext y
  show G (((cfg0.win 5).blk t).view.emb y) = G y
  refine congrArg G (funext fun a => Fin.ext ?_)
  match a with
  | ⟨0, _⟩ => show win0_5.index t (0 : Fin 1) * 64 + 1 * (y 0).val = (y 0).val; omega

/-- The output window's block at point t, read off ANY [50000, 64] array, at j: the array at rows 5000 t + …. -/
theorem read_out (t : Fin cfg0.N) (G : FVec Ideal S50000x64 .f32) (j : ((win0 6).xblock (grid0.coords t)).Idx) :
    ((cfg0.win 6).blk t).view.read (Elt Ideal) G j = G (((cfg0.win 6).blk t).view.emb j) := rfl

/-- What a write-back of a staging buffer holding X writes at j is X there: the window is not clipped. -/
theorem cut_out (t : Fin cfg0.N) (X : FVec Ideal S5000x64 .f32) (j : ((win0 6).xblock (grid0.coords t)).Idx) :
    (win0 6).cut (grid0.coords t) X j = X ((win0 6).xinj (grid0.coords t) j) := rfl

/-- The output block's index j sits at array row 5000 t + (row of j) … -/
theorem emb_out0 (t : Fin cfg0.N) (j : ((win0 6).xblock (grid0.coords t)).Idx) :
    ((((cfg0.win 6).blk t).view.emb j) 0).val = t.val * 5000 + (((win0 6).xinj (grid0.coords t) j) 0).val := by
  obtain ⟨-, -, -, -, e0, e1, -⟩ := idx_facts t
  show win0_6.index t (0 : Fin 2) * 5000 + 1 * (j 0).val = t.val * 5000 + (j 0).val
  omega

/-- … and at the same column. -/
theorem emb_out1 (t : Fin cfg0.N) (j : ((win0 6).xblock (grid0.coords t)).Idx) :
    ((((cfg0.win 6).blk t).view.emb j) 1).val = (((win0 6).xinj (grid0.coords t) j) 1).val := by
  obtain ⟨-, -, -, -, e0, e1, -⟩ := idx_facts t
  show win0_6.index t (1 : Fin 2) * 64 + 1 * (j 1).val = (j 1).val
  omega

/-! ## What each point writes back -/

/-- WHAT POINT t WRITES BACK is block t of the projection of the arrays as the call finds them. -/
theorem flushed_eq (c : Dev nD) (t : Fin cfg0.N) :
    (dats m 0 c).flushed 6 t = ((cfg0.win 6).blk t).view.read (Elt Ideal)
      (proj (V m c main_arg0) (V m c main_v18) (V m c main_arg3) (V m c main_arg5) (V m c main_arg4) (V m c main_arg6)) := by
  rw [flushed6]
  unfold out0_6
  rw [View.canon_unit_zero hz]
  simp only [View.ld_unit_zero (S := S5000x64) hz, View.ld_unit_zero (S := S64x64) hz, View.ld_unit_zero (S := S64) hz1]
  have w2 : iblk m c 2 t = V m c main_arg3 := read_whole2 t (V m c main_arg3)
  have w3 : iblk m c 3 t = V m c main_arg4 := read_whole3 t (V m c main_arg4)
  have w4 : iblk m c 4 t = V m c main_arg5 := read_whole4 t (V m c main_arg5)
  have w5 : iblk m c 5 t = V m c main_arg6 := read_whole5 t (V m c main_arg6)
  rw [w2, w3, w4, w5]
  funext j
  rw [read_out t _ j, cut_out t _ j]
  exact pay_at (iblk m c 0 t) (iblk m c 1 t) (V m c main_arg3) (V m c main_arg5) (V m c main_arg4) (V m c main_arg6)
    (V m c main_arg0) (V m c main_v18) t.val
    (fun y i h0 h1 => read_rows0 t (V m c main_arg0) y i h0 h1)
    (fun y i h0 h1 => read_rows1 t (V m c main_v18) y i h0 h1)
    ((win0 6).xinj (grid0.coords t) j) (((cfg0.win 6).blk t).view.emb j) (emb_out0 t j) (emb_out1 t j)

/-! ## The ten tiles cover the array -/

/-- An index is in point t's block iff each coordinate is in the block's range on its axis. -/
theorem mem_blk (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v19).slice (win0_6.rect t)).set ↔ _
  rw [View.set_slice_whole, Rect.mem_set_unit]
  exact Iff.rfl

/-- Node r lies in tile r / 5000. -/
theorem cover (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  have hN : cfg0.N = 10 := N_0
  refine ⟨⟨(i 0).val / 5000, by rw [hN]; omega⟩, flush0_6 _, ?_⟩
  rw [mem_blk]
  obtain ⟨-, -, -, -, e0, e1, -⟩ := idx_facts ⟨(i 0).val / 5000, by rw [hN]; omega⟩
  intro a
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 64 ≤ (i 1).val ∧ (i 1).val < win0_6.index _ (1 : Fin 2) * 64 + 64
    rw [e1]; omega

/-- THE RESULT ARRAY after the run: the projection of the arrays as the call finds them. -/
theorem final (c : Dev nD) : (dats m 0 c).arrAt 6 cfg0.N
    = proj (V m c main_arg0) (V m c main_v18) (V m c main_arg3) (V m c main_arg5) (V m c main_arg4) (V m c main_arg6) :=
  (dats m 0 c).arrAt_eq_of_cover 6 _ (fun t _ => flushed_eq m c t) cover

end Cert.KernelIdeal.Hand

end
-- ==== Proof.KernelHost.lean ====
/-
  The aggregated neighbour features as the kernel's call finds them.

  Before its call the kernel's program runs the same host operations as the reference: gather the source rows,
  scatter-add them by destination, count the destinations, divide by the count clamped below by one.
  `aggregate` names their composed term once; `found_aggregate` says the buffer the call's second window reads
  holds it when the call is entered. Nothing here looks inside the term.
-/
import proofs.«155360_j43671227466484_2_alg».proof.Proof.Gen.KernelIdeal.Frame
import Idealize.ShloMosaic.Lib.StableHlo.Run
import Idealize.ShloMosaic.Lib.Tactic

noncomputable section

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F]

/-- The mean of the in-neighbours' feature rows, node by node, as the host operations before the call compute it. -/
def aggregate (x : FVec F S50000x64 .f32) (src dst : (⟨S800000, .i32⟩ : BufTy).Contents (Elt F)) : FVec F S50000x64 .f32 :=
  Host.divf (Host.scatterAdd scatter_S50000x64_S800000x1_S800000x64_1_0_0_1 (broadcastInDim S50000x64 ![] bcast_S_S50000x64 (constant S_ .f32 0x00000000#32)) (broadcastInDim S800000x1 ![0] bcast_S800000_S800000x1_0 dst) (Host.gather gather_S50000x64_S800000x1_S800000x64_1_0_n_n_0_1_164 x (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S50000x64 ![0, 1] bcast_S50000x1_S50000x64_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x3F800000#32)))))

set_option maxHeartbeats 2000000 in
/-- From ANY contents W of the buffers, after the host operations before the call the second window's array holds
    `aggregate` of W's node features and edge lists: each operation's result read back once, in order. -/
theorem after_prefix (W : Valuation τ sig (Elt F)) :
    after (hostOps0 (F := F)) W (Proc.devRef .tc main_v18)
      = aggregate (W (Proc.devRef .tc main_arg0)) (W (Proc.devRef .tc main_arg1)) (W (Proc.devRef .tc main_arg2)) := by
  dsimp only [hostOps0]
  after_results_simp
  rfl

variable (m : (ℓ : Loc nD τ sig) → Buf (Elt F) ℓ)

/-- When the call is entered its second window's array holds `aggregate` of the launch contents of the node
    features and the two edge lists. -/
theorem found_aggregate (c : Dev nD) :
    V m c main_v18 = aggregate (m ((c : Thread nD τ).loc main_arg0)) (m ((c : Thread nD τ).loc main_arg1))
      (m ((c : Thread nD τ).loc main_arg2)) :=
  after_prefix (fun b => m (c, b))

end Cert.KernelIdeal.Host

end
-- ==== Proof.KernelRun.lean ====
/-
  The kernel's run, with the result array named.

  `Cert.KernelIdeal.Hand.final` gives the result array as the node projection of the buffers as the call finds
  them. The five argument buffers the call reads are found as launched (no host operation writes them), and the
  neighbour table is found at `Cert.KernelIdeal.Host.aggregate` of the launched node features and edge lists. So
  every weakly fair execution ends with the result array at `result`, a function of the launch memory alone, and
  with the arguments unchanged.
-/
import proofs.«155360_j43671227466484_2_alg».proof.Proof.KernelValue
import proofs.«155360_j43671227466484_2_alg».proof.Proof.KernelHost

noncomputable section

open Idealize.ShloMosaic Idealize.ShloMosaic.TcCoe Idealize.SL.Sem

namespace Cert.KernelIdeal.Hand

open Cert.KernelIdeal Cert.KernelIdeal.Gen Cert.KernelIdeal.Value Cert.NodeProj

variable (m : (ℓ : Loc nD τ sig) → Buf (Elt Ideal) ℓ) (ρ : Dev nD → PrngReg)

/-- The projection of equal arrays is equal. -/
theorem proj_congr {X X' H H' : FVec Ideal SN .f32} {Ws Ws' Wn Wn' : FVec Ideal SW .f32} {bs bs' bn bn' : FVec Ideal SB .f32}
    (hX : X = X') (hH : H = H') (hWs : Ws = Ws') (hWn : Wn = Wn') (hbs : bs = bs') (hbn : bn = bn') :
    proj X H Ws Wn bs bn = proj X' H' Ws' Wn' bs' bn' := by
  subst hX hH hWs hWn hbs hbn; rfl

/-- The result, from the launch memory: the projection of the node features, their aggregate over the edges, the
    self and neighbour weight tables and the self and neighbour biases. -/
abbrev result (c : Dev nD) : FVec Ideal SN .f32 :=
  proj (m ((c : Thread nD τ).loc main_arg0))
    (Cert.KernelIdeal.Host.aggregate (F := Ideal) (m ((c : Thread nD τ).loc main_arg0)) (m ((c : Thread nD τ).loc main_arg1)) (m ((c : Thread nD τ).loc main_arg2)))
    (m ((c : Thread nD τ).loc main_arg3)) (m ((c : Thread nD τ).loc main_arg5)) (m ((c : Thread nD τ).loc main_arg4)) (m ((c : Thread nD τ).loc main_arg6))

/-- The result array after the run is `result`. -/
theorem final_args (c : Dev nD) : (dats m 0 c).arrAt 6 cfg0.N = result m c :=
  (final m c).trans (proj_congr (V_main_arg0 m c) (Cert.KernelIdeal.Host.found_aggregate m c) (V_main_arg3 m c)
    (V_main_arg5 m c) (V_main_arg4 m c) (V_main_arg6 m c))

/-- The run, read: the result array at `result`, the arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_args m c), (h c).2⟩) (run_blocks m ρ)

end Cert.KernelIdeal.Hand

end
-- ==== Proof.RefValue.lean ====
/-
  The reference's result, at the extended reals, as the node projection of its arrays.

  The reference first aggregates: every edge (src e → dst e) adds the feature row of node src e to row dst e of a
  zero table (an index below zero is read from the end, as the host does it), a second scatter of ones counts each
  node's incoming edges, and the summed rows are divided by max(count, 1). `aggregate` names that table once, as
  the host operations spell it; nothing below looks inside it. The rest of the reference — two contractions, two
  broadcast biases, three sums — is `Cert.NodeProj.proj` of the node features, that table, the two weight tables and
  the two biases (`Cert.NodeProj.whole_eq`).
-/
import proofs.«155360_j43671227466484_2_alg».proof.Proof.Gen.ReferenceIdeal.Run
import proofs.«155360_j43671227466484_2_alg».proof.Proof.Spec

noncomputable section

namespace Cert.ReferenceIdeal.Hand

open Cert.ReferenceIdeal Cert.ReferenceIdeal.Gen Idealize.ShloMosaic Idealize.ShloMosaic.TcCoe Idealize.SL.Sem
open Cert.NodeProj

variable {F : FTy → Type} [FloatOps F]

/-- The mean of the in-neighbours' feature rows, node by node, as the host computes it: gather the source rows,
    scatter-add them by destination, count the destinations, divide by the count clamped below by one. -/
def aggregate (x : FVec F S50000x64 .f32) (src dst : (⟨S800000, .i32⟩ : BufTy).Contents (Elt F)) : FVec F S50000x64 .f32 :=
  Host.divf (Host.scatterAdd scatter_S50000x64_S800000x1_S800000x64_1_0_0_1 (broadcastInDim S50000x64 ![] bcast_S_S50000x64 (constant S_ .f32 0x00000000#32)) (broadcastInDim S800000x1 ![0] bcast_S800000_S800000x1_0 dst) (Host.gather gather_S50000x64_S800000x1_S800000x64_1_0_n_n_0_1_164 x (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S50000x64 ![0, 1] bcast_S50000x1_S50000x64_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x3F800000#32)))))

/-- The reference's whole result term is the projection of its arrays, with `aggregate` for the neighbour table. -/
theorem result_eq (x : FVec Ideal S50000x64 .f32) (src dst : (⟨S800000, .i32⟩ : BufTy).Contents (Elt Ideal))
    (ws : FVec Ideal S64x64 .f32) (bs : FVec Ideal S64 .f32) (wn : FVec Ideal S64x64 .f32) (bn : FVec Ideal S64 .f32) :
    addf (addf (Host.dotGeneral (F := Ideal) dot_S50000x64_S64x64_S50000x64_1_0_0_1_n_n none x ws)
               (broadcastInDim S50000x64 ![0, 1] bcast_S1x64_S50000x64_0_1 (broadcastInDim S1x64 ![1] bcast_S64_S1x64_1 bs)))
         (addf (Host.dotGeneral (F := Ideal) dot_S50000x64_S64x64_S50000x64_1_0_0_1_n_n none (aggregate (F := Ideal) x src dst) wn)
               (broadcastInDim S50000x64 ![0, 1] bcast_S1x64_S50000x64_0_1 (broadcastInDim S1x64 ![1] bcast_S64_S1x64_1 bn)))
      = proj x (aggregate (F := Ideal) x src dst) ws wn bs bn :=
  whole_eq dot_S50000x64_S64x64_S50000x64_1_0_0_1_n_n.wf bcast_S64_S1x64_1 bcast_S1x64_S50000x64_0_1
    x (aggregate (F := Ideal) x src dst) ws wn bs bn

end Cert.ReferenceIdeal.Hand

end
-- ==== Proof.lean ====
/-
  The projection step of a mean-aggregating graph layer, computed tile by tile, equals its whole-array reference
  on the extended reals.

  Both programs first aggregate on the host, by the same operations: for every node the sum of its in-neighbours'
  feature rows divided by max(in-degree, 1). The reference then forms (X · Ws + bs) + (H · Wn + bn) with two
  contractions over the whole [50000, 64] arrays. The kernel forms the same expression on ten tiles of 5000 nodes,
  each product into a zero accumulator, each bias laid out as one row and repeated over the tile's rows.

  On the extended reals a product into zero and a contraction are one finite sum of products, and a tile's row is a
  row of its array, so entry (r, q) of either result is

      (∑ k, X (r, k) · Ws (k, q) + bs q) + (∑ k, H (r, k) · Wn (k, q) + bn q)

  with the additions grouped alike (Proof/Spec.lean). The tiles cover every node once (Proof/KernelValue.lean), the
  neighbour table H the call finds is the host operations' composed term of the launch memory (Proof/KernelHost.lean),
  and the reference's run ends at the same expression (Proof/RefValue.lean); the two host terms are one term, since
  the two programs print the same operations. No step needs an input to be finite.

  The three frames are the generated ones (the reference's is its generated run with the result dropped), and the
  idealized kernel is the kernel's own text read at the extended reals, so nothing is owed for it.
-/
import proofs.«155360_j43671227466484_2_alg».proof.Defs
import proofs.«155360_j43671227466484_2_alg».proof.Proof.Gen.Kernel
import proofs.«155360_j43671227466484_2_alg».proof.Proof.Gen.Kernel.Skeleton
import proofs.«155360_j43671227466484_2_alg».proof.Proof.Gen.Kernel.Launch
import proofs.«155360_j43671227466484_2_alg».proof.Proof.Gen.Kernel.Points
import proofs.«155360_j43671227466484_2_alg».proof.Proof.Gen.Kernel.Frame
import proofs.«155360_j43671227466484_2_alg».proof.Proof.Gen.KernelIdeal
import proofs.«155360_j43671227466484_2_alg».proof.Proof.Gen.KernelIdeal.Skeleton
import proofs.«155360_j43671227466484_2_alg».proof.Proof.Gen.KernelIdeal.Launch
import proofs.«155360_j43671227466484_2_alg».proof.Proof.Gen.KernelIdeal.Points
import proofs.«155360_j43671227466484_2_alg».proof.Proof.Gen.KernelIdeal.Frame
import proofs.«155360_j43671227466484_2_alg».proof.Proof.Gen.ReferenceIdeal
import proofs.«155360_j43671227466484_2_alg».proof.Proof.Gen.Pre_finite_inputs
import proofs.«155360_j43671227466484_2_alg».proof.Proof.Gen.KernelIdeal.Value
import proofs.«155360_j43671227466484_2_alg».proof.Proof.Gen.ReferenceIdeal.Run
import proofs.«155360_j43671227466484_2_alg».proof.Proof.KernelRun
import proofs.«155360_j43671227466484_2_alg».proof.Proof.RefValue
import Idealize.ShloMosaic.Adequacy
import Idealize.ShloMosaic.Init

noncomputable section

namespace Cert.Proof

open Idealize.ShloMosaic Idealize.ShloMosaic.TcCoe Idealize.SL.Sem

/-- The two programs' host operations before the projection compose ONE term of the node features and the edge
    lists: they are printed from the same operations, with the same dimension numbers. -/
theorem aggregate_same (x : FVec Ideal Cert.KernelIdeal.S50000x64 .f32)
    (src dst : (⟨Cert.KernelIdeal.S800000, .i32⟩ : BufTy).Contents (Elt Ideal)) :
    Cert.KernelIdeal.Host.aggregate (F := Ideal) x src dst = Cert.ReferenceIdeal.Hand.aggregate (F := Ideal) x src dst :=
  rfl

theorem frame_kernel : Cert.frame_Kernel := fun m ρ _ => Cert.Kernel.Gen.frame m ρ

theorem frame_kernelIdeal : Cert.frame_KernelIdeal := fun m ρ _ => Cert.KernelIdeal.Gen.frame m ρ

/-- The reference has no call: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end at the node projection of the launched arrays and their aggregate. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [e0, e1, e2, e3, e4, e5, e6]
  refine (Cert.ReferenceIdeal.Hand.result_eq _ _ _ _ _ _ _).trans ?_
  rw [← aggregate_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
